-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x2048 : Shape := ⟨3, ![16, 4096, 2048]⟩
abbrev S4096x3 : Shape := ⟨2, ![4096, 3]⟩
abbrev S1024 : Shape := ⟨1, ![1024]⟩
abbrev S_ : Shape := ⟨0, ![]⟩

class Facts : Prop where
  bcast_S_S16x4096x2048 : S_.BroadcastsInDim S16x4096x2048 (![] : Fin 0 → Fin S16x4096x2048.rank)
  reducesTo_S16x4096x2048_S_d0_1_2 : S16x4096x2048.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16x4096x2048 .f32) (main_arg1 : IVec S4096x3 32) (main_arg2 : FVec F S1024 .f32) : IVec S_ 1 :=
  let main_v0 : FVec F S16x4096x2048 .f32 := Host.absf main_arg0
  let main_cst : FVec F S_ .f32 := constant S_ .f32 0x7F800000#32
  let main_v1 : FVec F S16x4096x2048 .f32 := broadcastInDim S16x4096x2048 ![] bcast_S_S16x4096x2048 main_cst
  let main_v2 : IVec S16x4096x2048 1 := cmpf .olt main_v0 main_v1
  let main_c : IVec S_ 1 := constantI S_ 1 1#1
  let main_v3 : IVec S_ 1 := (fun x v => Host.reduce IntOp.andi x v reducesTo_S16x4096x2048_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  main_v8
-- ==== Kernel.lean ====
abbrev S16x4096x2048 : Shape := ⟨3, ![16, 4096, 2048]⟩
abbrev S4096x3 : Shape := ⟨2, ![4096, 3]⟩
abbrev S1024 : Shape := ⟨1, ![1024]⟩
abbrev S8x5x2 : Shape := ⟨3, ![8, 5, 2]⟩
abbrev S4096x1 : Shape := ⟨2, ![4096, 1]⟩
abbrev S4096 : Shape := ⟨1, ![4096]⟩
abbrev S_ : Shape := ⟨0, ![]⟩
abbrev S4096x2 : Shape := ⟨2, ![4096, 2]⟩
abbrev S1x1024 : Shape := ⟨2, ![1, 1024]⟩
abbrev S4096x1024 : Shape := ⟨2, ![4096, 1024]⟩
abbrev S4096x1024x1 : Shape := ⟨3, ![4096, 1024, 1]⟩
abbrev S4096x1024x2 : Shape := ⟨3, ![4096, 1024, 2]⟩
abbrev S4096x2048 : Shape := ⟨2, ![4096, 2048]⟩
abbrev S1x512x2048 : Shape := ⟨3, ![1, 512, 2048]⟩
abbrev S512x2048 : Shape := ⟨2, ![512, 2048]⟩

abbrev nBuf : Space → Nat
  | .hbm => 97
  | .vmem => 6
  | .smem => 0
  | _ => 0

abbrev bufTy : (tb : Table) → Fin (tcTables nBuf tb) → BufTy
  | .hbm, ⟨0, _⟩ => ⟨S16x4096x2048, .f32⟩
  | .hbm, ⟨1, _⟩ => ⟨S4096x3, .i32⟩
  | .hbm, ⟨2, _⟩ => ⟨S1024, .f32⟩
  | .hbm, ⟨3, _⟩ => ⟨S8x5x2, .i32⟩
  | .hbm, ⟨4, _⟩ => ⟨S4096x1, .i32⟩
  | .hbm, ⟨5, _⟩ => ⟨S4096, .i32⟩
  | .hbm, ⟨6, _⟩ => ⟨S4096x1, .i32⟩
  | .hbm, ⟨7, _⟩ => ⟨S4096, .i32⟩
  | .hbm, ⟨8, _⟩ => ⟨S4096x1, .i32⟩
  | .hbm, ⟨9, _⟩ => ⟨S4096, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S_, .i1⟩
  | .hbm, ⟨26, _⟩ => ⟨S4096, .i1⟩
  | .hbm, ⟨27, _⟩ => ⟨S4096, .i1⟩
  | .hbm, ⟨28, _⟩ => ⟨S4096, .i1⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x1, .i32⟩
  | .hbm, ⟨74, _⟩ => ⟨S4096x2, .i32⟩
  | .hbm, ⟨75, _⟩ => ⟨S4096x2, .i32⟩
  | .hbm, ⟨76, _⟩ => ⟨S_, .i32⟩
  | .hbm, ⟨77, _⟩ => ⟨S_, .i32⟩
  | .hbm, ⟨78, _⟩ => ⟨S4096x2, .i32⟩
  | .hbm, ⟨79, _⟩ => ⟨S4096x2, .f32⟩
  | .hbm, ⟨80, _⟩ => ⟨S4096x1, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S1x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024x1, .f32⟩
  | .hbm, ⟨93, _⟩ => ⟨S4096x1024x1, .f32⟩
  | .hbm, ⟨94, _⟩ => ⟨S4096x1024x2, .f32⟩
  | .hbm, ⟨95, _⟩ => ⟨S4096x2048, .f32⟩
  | .hbm, ⟨96, _⟩ => ⟨S16x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S512x2048, .f32⟩
  | .local _ .vmem, ⟨3, _⟩ => ⟨S512x2048, .f32⟩
  | .local _ .vmem, ⟨4, _⟩ => ⟨S1x512x2048, .f32⟩
  | .local _ .vmem, ⟨5, _⟩ => ⟨S1x512x2048, .f32⟩
  | _, _ => ⟨S16x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_c_3 : Ref sig .tc := ⟨.hbm, 38, rfl⟩
abbrev main_v11 : Ref sig .tc := ⟨.hbm, 39, rfl⟩
abbrev main_v12 : Ref sig .tc := ⟨.hbm, 40, rfl⟩
abbrev main_c_4 : Ref sig .tc := ⟨.hbm, 41, rfl⟩
abbrev main_v13 : Ref sig .tc := ⟨.hbm, 42, rfl⟩
abbrev main_v14 : Ref sig .tc := ⟨.hbm, 43, rfl⟩
abbrev main_c_5 : Ref sig .tc := ⟨.hbm, 44, rfl⟩
abbrev main_c_6 : Ref sig .tc := ⟨.hbm, 45, rfl⟩
abbrev main_call1_v0 : Ref sig .tc := ⟨.hbm, 46, rfl⟩
abbrev main_call1_v1 : Ref sig .tc := ⟨.hbm, 47, rfl⟩
abbrev main_v15 : Ref sig .tc := ⟨.hbm, 48, rfl⟩
abbrev main_c_7 : Ref sig .tc := ⟨.hbm, 49, rfl⟩
abbrev main_call2_v0 : Ref sig .tc := ⟨.hbm, 50, rfl⟩
abbrev main_v16 : Ref sig .tc := ⟨.hbm, 51, rfl⟩
abbrev main_c_8 : Ref sig .tc := ⟨.hbm, 52, rfl⟩
abbrev main_call3_v0 : Ref sig .tc := ⟨.hbm, 53, rfl⟩
abbrev main_v17 : Ref sig .tc := ⟨.hbm, 54, rfl⟩
abbrev main_c_9 : Ref sig .tc := ⟨.hbm, 55, rfl⟩
abbrev main_call4_v0 : Ref sig .tc := ⟨.hbm, 56, rfl⟩
abbrev main_v18 : Ref sig .tc := ⟨.hbm, 57, rfl⟩
abbrev main_c_10 : Ref sig .tc := ⟨.hbm, 58, rfl⟩
abbrev main_v19 : Ref sig .tc := ⟨.hbm, 59, rfl⟩
abbrev main_v20 : Ref sig .tc := ⟨.hbm, 60, rfl⟩
abbrev main_c_11 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_c_12 : Ref sig .tc := ⟨.hbm, 65, rfl⟩
abbrev main_v24 : Ref sig .tc := ⟨.hbm, 66, rfl⟩
abbrev main_v25 : Ref sig .tc := ⟨.hbm, 67, rfl⟩
abbrev main_c_13 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_call5_call0_c : Ref sig .tc := ⟨.hbm, 76, rfl⟩
abbrev main_call5_call0_v0 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S4096x3_S4096x1_0_0 : S4096x3.Slices ![0, 0] S4096x1
  shapeCasts_S4096x1_S4096 : S4096x1.ShapeCasts S4096
  slices_S4096x3_S4096x1_0_1 : S4096x3.Slices ![0, 1] S4096x1
  slices_S4096x3_S4096x1_0_2 : S4096x3.Slices ![0, 2] S4096x1
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S_S_ : S_.BroadcastsInDim S_ (![] : Fin 0 → Fin S_.rank)
  reduceWindows_S4096x2_S4096x2_w4096s1p4095_0_w1s1p0_0 : S4096x2.ReduceWindows (![4096, 1] : Fin 2 → Nat) ![1, 1] ![4095, 0] ![0, 0] S4096x2
  h_S_ : 0 < S_.numel
  slices_S4096x2_S4096x1_0_0 : S4096x2.Slices ![0, 0] S4096x1
  bcast_S1024_S1x1024_1 : S1024.BroadcastsInDim S1x1024 (![1] : Fin 1 → Fin S1x1024.rank)
  bcast_S4096x1_S4096x1024_0_1 : S4096x1.BroadcastsInDim S4096x1024 (![0, 1] : Fin 2 → Fin S4096x1024.rank)
  bcast_S1x1024_S4096x1024_0_1 : S1x1024.BroadcastsInDim S4096x1024 (![0, 1] : Fin 2 → Fin S4096x1024.rank)
  slices_S4096x2_S4096x1_0_1 : S4096x2.Slices ![0, 1] S4096x1
  bcast_S4096x1024_S4096x1024x1_0_1 : S4096x1024.BroadcastsInDim S4096x1024x1 (![0, 1] : Fin 2 → Fin S4096x1024x1.rank)
  concatenates_S4096x1024x1_S4096x1024x1_S4096x1024x2_d2 : Shape.Concatenates [S4096x1024x1, S4096x1024x1] S4096x1024x2 2
  shapeCasts_S4096x1024x2_S4096x2048 : S4096x1024x2.ShapeCasts S4096x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S512x2048_S1x512x2048 : S512x2048.ShapeCasts S1x512x2048
  gather_S8x5x2_S4096x2_S4096x2_1_01_n_n_01_1_112_wf : GatherDims.WF S8x5x2 S4096x2 S4096x2 [1] [0, 1] [] [0, 1] [] 1 ![1, 1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x4096x2048.size a
  hwx0_0 : ∀ i : grid0.Coords, EltTy.bits .f32 = 32 ∨ (Rect.block (s := S16x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S16x4096x2048.size a
  hwx0_2 : ∀ i : grid0.Coords, EltTy.bits .f32 = 32 ∨ (Rect.block (s := S16x4096x2048) S1x512x2048.size (cc0_transform_2 i) (hinb0_2 i)).WholeWords (EltTy.packing .f32)

variable [Facts₀]

def gather_S8x5x2_S4096x2_S4096x2_1_01_n_n_01_1_112 : GatherDims S8x5x2 S4096x2 S4096x2 where
  offsetDims := [1]
  collapsedSliceDims := [0, 1]
  operandBatchingDims := []
  startIndicesBatchingDims := []
  startIndexMap := [0, 1]
  indexVectorDim := 1
  sliceSizes := ![1, 1, 2]
  wf := gather_S8x5x2_S4096x2_S4096x2_1_01_n_n_01_1_112_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x2048 : Shape := ⟨3, ![16, 4096, 2048]⟩
abbrev S4096x3 : Shape := ⟨2, ![4096, 3]⟩
abbrev S1024 : Shape := ⟨1, ![1024]⟩
abbrev S8x5x2 : Shape := ⟨3, ![8, 5, 2]⟩
abbrev S4096x1 : Shape := ⟨2, ![4096, 1]⟩
abbrev S4096 : Shape := ⟨1, ![4096]⟩
abbrev S_ : Shape := ⟨0, ![]⟩
abbrev S4096x2 : Shape := ⟨2, ![4096, 2]⟩
abbrev S1x1024 : Shape := ⟨2, ![1, 1024]⟩
abbrev S4096x1024 : Shape := ⟨2, ![4096, 1024]⟩
abbrev S4096x1024x1 : Shape := ⟨3, ![4096, 1024, 1]⟩
abbrev S4096x1024x2 : Shape := ⟨3, ![4096, 1024, 2]⟩
abbrev S4096x2048 : Shape := ⟨2, ![4096, 2048]⟩
abbrev S1x4096x2048 : Shape := ⟨3, ![1, 4096, 2048]⟩

abbrev nBuf : Space → Nat
  | .hbm => 99
  | .vmem => 0
  | .smem => 0
  | _ => 0

abbrev bufTy : (tb : Table) → Fin (tcTables nBuf tb) → BufTy
  | .hbm, ⟨0, _⟩ => ⟨S16x4096x2048, .f32⟩
  | .hbm, ⟨1, _⟩ => ⟨S4096x3, .i32⟩
  | .hbm, ⟨2, _⟩ => ⟨S1024, .f32⟩
  | .hbm, ⟨3, _⟩ => ⟨S8x5x2, .i32⟩
  | .hbm, ⟨4, _⟩ => ⟨S4096x1, .i32⟩
  | .hbm, ⟨5, _⟩ => ⟨S4096, .i32⟩
  | .hbm, ⟨6, _⟩ => ⟨S4096x1, .i32⟩
  | .hbm, ⟨7, _⟩ => ⟨S4096, .i32⟩
  | .hbm, ⟨8, _⟩ => ⟨S4096x1, .i32⟩
  | .hbm, ⟨9, _⟩ => ⟨S4096, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S_, .i1⟩
  | .hbm, ⟨26, _⟩ => ⟨S4096, .i1⟩
  | .hbm, ⟨27, _⟩ => ⟨S4096, .i1⟩
  | .hbm, ⟨28, _⟩ => ⟨S4096, .i1⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .i32⟩
  | .hbm, ⟨72, _⟩ => ⟨S4096x1, .i32⟩
  | .hbm, ⟨73, _⟩ => ⟨S4096x1, .i32⟩
  | .hbm, ⟨74, _⟩ => ⟨S4096x2, .i32⟩
  | .hbm, ⟨75, _⟩ => ⟨S4096x2, .i32⟩
  | .hbm, ⟨76, _⟩ => ⟨S_, .i32⟩
  | .hbm, ⟨77, _⟩ => ⟨S_, .i32⟩
  | .hbm, ⟨78, _⟩ => ⟨S4096x2, .i32⟩
  | .hbm, ⟨79, _⟩ => ⟨S4096x2, .f32⟩
  | .hbm, ⟨80, _⟩ => ⟨S4096x1, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S1x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024x1, .f32⟩
  | .hbm, ⟨93, _⟩ => ⟨S4096x1024x1, .f32⟩
  | .hbm, ⟨94, _⟩ => ⟨S4096x1024x2, .f32⟩
  | .hbm, ⟨95, _⟩ => ⟨S4096x2048, .f32⟩
  | .hbm, ⟨96, _⟩ => ⟨S1x4096x2048, .f32⟩
  | .hbm, ⟨97, _⟩ => ⟨S16x4096x2048, .f32⟩
  | .hbm, ⟨98, _⟩ => ⟨S16x4096x2048, .f32⟩
  | _, _ => ⟨S16x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_c_3 : Ref sig .tc := ⟨.hbm, 38, rfl⟩
abbrev main_v11 : Ref sig .tc := ⟨.hbm, 39, rfl⟩
abbrev main_v12 : Ref sig .tc := ⟨.hbm, 40, rfl⟩
abbrev main_c_4 : Ref sig .tc := ⟨.hbm, 41, rfl⟩
abbrev main_v13 : Ref sig .tc := ⟨.hbm, 42, rfl⟩
abbrev main_v14 : Ref sig .tc := ⟨.hbm, 43, rfl⟩
abbrev main_c_5 : Ref sig .tc := ⟨.hbm, 44, rfl⟩
abbrev main_c_6 : Ref sig .tc := ⟨.hbm, 45, rfl⟩
abbrev main_call1_v0 : Ref sig .tc := ⟨.hbm, 46, rfl⟩
abbrev main_call1_v1 : Ref sig .tc := ⟨.hbm, 47, rfl⟩
abbrev main_v15 : Ref sig .tc := ⟨.hbm, 48, rfl⟩
abbrev main_c_7 : Ref sig .tc := ⟨.hbm, 49, rfl⟩
abbrev main_call2_v0 : Ref sig .tc := ⟨.hbm, 50, rfl⟩
abbrev main_v16 : Ref sig .tc := ⟨.hbm, 51, rfl⟩
abbrev main_c_8 : Ref sig .tc := ⟨.hbm, 52, rfl⟩
abbrev main_call3_v0 : Ref sig .tc := ⟨.hbm, 53, rfl⟩
abbrev main_v17 : Ref sig .tc := ⟨.hbm, 54, rfl⟩
abbrev main_c_9 : Ref sig .tc := ⟨.hbm, 55, rfl⟩
abbrev main_call4_v0 : Ref sig .tc := ⟨.hbm, 56, rfl⟩
abbrev main_v18 : Ref sig .tc := ⟨.hbm, 57, rfl⟩
abbrev main_c_10 : Ref sig .tc := ⟨.hbm, 58, rfl⟩
abbrev main_v19 : Ref sig .tc := ⟨.hbm, 59, rfl⟩
abbrev main_v20 : Ref sig .tc := ⟨.hbm, 60, rfl⟩
abbrev main_c_11 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_c_12 : Ref sig .tc := ⟨.hbm, 65, rfl⟩
abbrev main_v24 : Ref sig .tc := ⟨.hbm, 66, rfl⟩
abbrev main_v25 : Ref sig .tc := ⟨.hbm, 67, rfl⟩
abbrev main_c_13 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_call5_call0_c : Ref sig .tc := ⟨.hbm, 76, rfl⟩
abbrev main_call5_call0_v0 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩

abbrev nD : Nat := 1
abbrev τ : Topo := Topo.v7x

variable {F : FTy → Type} [FloatOps F]

class Facts₀ : Prop where
  slices_S4096x3_S4096x1_0_0 : S4096x3.Slices ![0, 0] S4096x1
  shapeCasts_S4096x1_S4096 : S4096x1.ShapeCasts S4096
  slices_S4096x3_S4096x1_0_1 : S4096x3.Slices ![0, 1] S4096x1
  slices_S4096x3_S4096x1_0_2 : S4096x3.Slices ![0, 2] S4096x1
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S_S_ : S_.BroadcastsInDim S_ (![] : Fin 0 → Fin S_.rank)
  reduceWindows_S4096x2_S4096x2_w4096s1p4095_0_w1s1p0_0 : S4096x2.ReduceWindows (![4096, 1] : Fin 2 → Nat) ![1, 1] ![4095, 0] ![0, 0] S4096x2
  h_S_ : 0 < S_.numel
  slices_S4096x2_S4096x1_0_0 : S4096x2.Slices ![0, 0] S4096x1
  bcast_S1024_S1x1024_1 : S1024.BroadcastsInDim S1x1024 (![1] : Fin 1 → Fin S1x1024.rank)
  bcast_S4096x1_S4096x1024_0_1 : S4096x1.BroadcastsInDim S4096x1024 (![0, 1] : Fin 2 → Fin S4096x1024.rank)
  bcast_S1x1024_S4096x1024_0_1 : S1x1024.BroadcastsInDim S4096x1024 (![0, 1] : Fin 2 → Fin S4096x1024.rank)
  slices_S4096x2_S4096x1_0_1 : S4096x2.Slices ![0, 1] S4096x1
  bcast_S4096x1024_S4096x1024x1_0_1 : S4096x1024.BroadcastsInDim S4096x1024x1 (![0, 1] : Fin 2 → Fin S4096x1024x1.rank)
  concatenates_S4096x1024x1_S4096x1024x1_S4096x1024x2_d2 : Shape.Concatenates [S4096x1024x1, S4096x1024x1] S4096x1024x2 2
  shapeCasts_S4096x1024x2_S4096x2048 : S4096x1024x2.ShapeCasts S4096x2048
  bcast_S4096x2048_S1x4096x2048_1_2 : S4096x2048.BroadcastsInDim S1x4096x2048 (![1, 2] : Fin 2 → Fin S1x4096x2048.rank)
  bcast_S1x4096x2048_S16x4096x2048_0_1_2 : S1x4096x2048.BroadcastsInDim S16x4096x2048 (![0, 1, 2] : Fin 3 → Fin S16x4096x2048.rank)
  gather_S8x5x2_S4096x2_S4096x2_1_01_n_n_01_1_112_wf : GatherDims.WF S8x5x2 S4096x2 S4096x2 [1] [0, 1] [] [0, 1] [] 1 ![1, 1, 2]

variable [Facts₀]

def gather_S8x5x2_S4096x2_S4096x2_1_01_n_n_01_1_112 : GatherDims S8x5x2 S4096x2 S4096x2 where
  offsetDims := [1]
  collapsedSliceDims := [0, 1]
  operandBatchingDims := []
  startIndicesBatchingDims := []
  startIndexMap := [0, 1]
  indexVectorDim := 1
  sliceSizes := ![1, 1, 2]
  wf := gather_S8x5x2_S4096x2_S4096x2_1_01_n_n_01_1_112_wf

class Facts : Prop extends Facts₀ where

variable [Facts]
-- ==== Proof.AddRows.lean ====
/-
  The specification both programs meet: the positional encoding added to every batch row.

  `addRows x pe` is the array [16, 4096, 2048] whose entry (b, r, d) is `x (b, r, d) + pe (r, d)`: the sum the reference
  writes as `x + pe` with `pe` repeated over the leading axis, and the kernel computes tile by tile. It is stated
  over any float instance (the instance's own addition); nothing about the extended reals is needed, because the two
  programs add the same two numbers at every index.
-/
import Idealize.ShloMosaic.Lib.ValueIdx
import Idealize.ShloMosaic.Lib.Pipeline.Value

noncomputable section

namespace Cert.AddRows

open Idealize.ShloMosaic Idealize.ShloMosaic.ValueIdx

/-- The (row, column) of an index (batch row, row, column). -/
abbrev rowOf (i : (⟨3, ![16, 4096, 2048]⟩ : Shape).Idx) : (⟨2, ![4096, 2048]⟩ : Shape).Idx :=
  fun a => match a with | ⟨0, _⟩ => ⟨(i 1).val, (i 1).isLt⟩ | ⟨1, _⟩ => ⟨(i 2).val, (i 2).isLt⟩

/-- `x + pe`, `pe` repeated over the batch axis: entry (b, r, d) is `x (b, r, d) + pe (r, d)`. -/
def addRows {F : FTy → Type} [FloatOps F] (x : (⟨3, ![16, 4096, 2048]⟩ : Shape).Idx → Elt F .f32)
    (pe : (⟨2, ![4096, 2048]⟩ : Shape).Idx → Elt F .f32) : (⟨3, ![16, 4096, 2048]⟩ : Shape).Idx → Elt F .f32 :=
  fun i => FloatOps.addf (x i) (pe (rowOf i))

/-- The reference's spelling: `pe` given a leading axis of 1, repeated 16 times along it, added to `x`. -/
theorem broadcast_add {F : FTy → Type} [FloatOps F]
    (h1 : (⟨2, ![4096, 2048]⟩ : Shape).BroadcastsInDim (⟨3, ![1, 4096, 2048]⟩ : Shape) (![1, 2] : Fin 2 → Fin 3))
    (h2 : (⟨3, ![1, 4096, 2048]⟩ : Shape).BroadcastsInDim (⟨3, ![16, 4096, 2048]⟩ : Shape) (![0, 1, 2] : Fin 3 → Fin 3))
    (x : FVec F (⟨3, ![16, 4096, 2048]⟩ : Shape) .f32) (pe : FVec F (⟨2, ![4096, 2048]⟩ : Shape) .f32) :
    addf x (broadcastInDim (⟨3, ![16, 4096, 2048]⟩ : Shape) ![0, 1, 2] h2 (broadcastInDim (⟨3, ![1, 4096, 2048]⟩ : Shape) ![1, 2] h1 pe))
      = addRows x pe := by
  funext i
  show FloatOps.addf (x i) _ = FloatOps.addf (x i) (pe (rowOf i))
  refine congrArg (FloatOps.addf (x i)) ?_
  refine (broadcastInDim_apply _ h2 _ i (fun a => match a with | ⟨0, _⟩ => ⟨0, (Nat.one_pos : 0 < 1)⟩ | ⟨1, _⟩ => ⟨(i 1).val, (i 1).isLt⟩ | ⟨2, _⟩ => ⟨(i 2).val, (i 2).isLt⟩) ?_).trans ?_
  · intro a
    match a with
    | ⟨0, _⟩ => rfl
    | ⟨1, _⟩ => rfl
    | ⟨2, _⟩ => rfl
  · refine (broadcastInDim_apply _ h1 _ _ (rowOf i) ?_).trans rfl
    intro a
    match a with
    | ⟨0, _⟩ => rfl
    | ⟨1, _⟩ => rfl

end Cert.AddRows

end
-- ==== Proof.KernelTiles.lean ====
/-
  The kernel's tiles: where a block's element sits in its array, and that the blocks cover the result.

  The grid has 8 × 16 points; the point with coordinates (l, b) stages the block of `x` of batch row b and rows
  512·l … 512·l + 511, the block of `pe` of the same rows (the same for every b), and writes back the block of the
  result of batch row b and those rows. A block's element sits in the array at block index × block size + its own
  coordinate on each axis, and the three windows' index maps agree on the rows (decided over the 128 points): so the
  element-by-element sum of the two staged blocks is, at the array index under a block index, `x (b, r, d) + pe (r, d)`
  (`block_sum`, for any two arrays). The 128 blocks cover the result array: (b, r, ·) lies in the block of the point
  whose block index is (b, r / 512, 0) (`covered`).
-/
import proofs.«154087_j72215580115573_1_alg».proof.Proof.Gen.KernelIdeal.Value
import proofs.«154087_j72215580115573_1_alg».proof.Proof.AddRows

noncomputable section

namespace Cert.KernelIdeal.Tiles

open Cert.KernelIdeal Cert.KernelIdeal.Gen Idealize.ShloMosaic Idealize.ShloMosaic.TcCoe Idealize.SL.Sem
open Idealize.ShloMosaic.Pipeline (Dat)
open Cert.AddRows

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the grid: the blocks of `x` and of the result move together; the block of
    `pe` is the result's row block; no block index leaves its range. -/
theorem index_maps : ∀ t : Fin cfg0.N, win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 2) = win0_2.index t (1 : Fin 3)
    ∧ win0_1.index t (1 : Fin 2) = win0_2.index t (2 : Fin 3)
    ∧ win0_2.index t (0 : Fin 3) ≤ 15 ∧ win0_2.index t (1 : Fin 3) ≤ 7 ∧ win0_2.index t (2 : Fin 3) = 0 :=
  (by decide +kernel : ∀ t : Fin grid0.N, _)

/-- Every (batch row, row block) is some point's block. -/
theorem index_onto : ∀ (q0 : Fin 16) (q1 : Fin 8), ∃ t : Fin cfg0.N, win0_2.index t = ![q0.val, q1.val, 0] :=
  (by decide +kernel : ∀ (q0 : Fin 16) (q1 : Fin 8), ∃ t : Fin grid0.N, win0_2.index t = ![q0.val, q1.val, 0])

/-- The sum of the two staged blocks at a block index is `addRows` of the whole arrays at the array index under it:
    stated for any arrays `A0`, `A1`. -/
theorem block_sum (A0 : S16x4096x2048.Idx → Elt F .f32) (A1 : S4096x2048.Idx → Elt F .f32) (t : Fin cfg0.N) (j : S1x512x2048.Idx) :
    FloatOps.addf (A0 (((cfg0.win 0).blk t).view.emb (Value.ix2_0 j))) (A1 (((cfg0.win 1).blk t).view.emb (Value.ix2_1 j)))
      = addRows A0 A1 (((cfg0.win 2).blk t).view.emb j) := by
  obtain ⟨e0, e1, e2, e3, e4, -, -, -⟩ := index_maps t
  have h0 : ((cfg0.win 0).blk t).view.emb (Value.ix2_0 j) = ((cfg0.win 2).blk t).view.emb j := by
    funext a; apply Fin.ext
    match a with
    | ⟨0, _⟩ => show win0_0.index t (0 : Fin 3) * 1 + 1 * 0 = win0_2.index t (0 : Fin 3) * 1 + 1 * (j 0).val; have hj : (j 0).val < 1 := (j 0).isLt; omega
    | ⟨1, _⟩ => show win0_0.index t (1 : Fin 3) * 512 + 1 * (j 1).val = win0_2.index t (1 : Fin 3) * 512 + 1 * (j 1).val; omega
    | ⟨2, _⟩ => show win0_0.index t (2 : Fin 3) * 2048 + 1 * (j 2).val = win0_2.index t (2 : Fin 3) * 2048 + 1 * (j 2).val; omega
  have h1 : ((cfg0.win 1).blk t).view.emb (Value.ix2_1 j) = rowOf (((cfg0.win 2).blk t).view.emb j) := by
    funext a; apply Fin.ext
    match a with
    | ⟨0, _⟩ => show win0_1.index t (0 : Fin 2) * 512 + 1 * (j 1).val = win0_2.index t (1 : Fin 3) * 512 + 1 * (j 1).val; omega
    | ⟨1, _⟩ => show win0_1.index t (1 : Fin 2) * 2048 + 1 * (j 2).val = win0_2.index t (2 : Fin 3) * 2048 + 1 * (j 2).val; omega
  rw [h0, h1]
  rfl

/-- An index of the array is in point `t`'s block iff each coordinate is in the block's range on its axis. -/
theorem mem_block (t : Fin cfg0.N) (i : S16x4096x2048.Idx) :
    i ∈ ((cfg0.win 2).blk t).view.set ↔ ∀ a : Fin 3, win0_2.index t a * S1x512x2048.size a ≤ (i a).val ∧ (i a).val < win0_2.index t a * S1x512x2048.size a + S1x512x2048.size a := by
  show i ∈ ((View.whole main_v51).slice (win0_2.rect t)).set ↔ _
  rw [View.set_slice_whole, Rect.mem_set_unit]
  exact Iff.rfl

/-- The blocks cover the array: (b, r, d) lies in the block of the point whose block index is (b, r / 512, 0). -/
theorem covered (i : S16x4096x2048.Idx) : ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 2048 := (i 2).isLt
  obtain ⟨t, ht⟩ := index_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

end Cert.KernelIdeal.Tiles

end
-- ==== Proof.KernelValue.lean ====
/-
  What the kernel's result array holds after the run: `x + pe`, the encoding added to every batch row.

  The body adds the two staged blocks element by element (the generated value leg reads the body's one store as that
  sum: `Value.canon2_eq`), so what a point writes back is, read through its block, the one function `addRows x pe` of
  the whole arrays (`Tiles.block_sum`); the blocks cover the array (`Tiles.covered`), so after the run the array is that
  function. `pe` here is the array the host operations before the launch leave in the window's buffer
  (`Gen.V m c main_v50`); it is never opened.
-/
import proofs.«154087_j72215580115573_1_alg».proof.Proof.KernelTiles

noncomputable section

namespace Cert.KernelIdeal.AddRowsValue

open Cert.KernelIdeal Cert.KernelIdeal.Gen Cert.KernelIdeal.Tiles Idealize.ShloMosaic Idealize.ShloMosaic.TcCoe Idealize.SL.Sem
open Idealize.ShloMosaic.Pipeline (Dat)
open Cert.AddRows

variable {F : FTy → Type} [FloatOps F]
variable (m : (ℓ : Loc nD τ sig) → Buf (Elt F) ℓ) (ρ : Dev nD → PrngReg)

/-- What a point writes back, for ANY two arrays in the windows' places: the two staged blocks added element by element,
    cut to what the write-back moves, is block `t` of `addRows` of the arrays. -/
theorem cut_sum (A0 : S16x4096x2048.Idx → Elt F .f32) (A1 : S4096x2048.Idx → Elt F .f32) (t : Fin cfg0.N) :
    (cfg0.win 2).cut (grid0.coords t) (Value.E2 (((cfg0.win 0).blk t).view.read (Elt F) A0) (((cfg0.win 1).blk t).view.read (Elt F) A1))
      = ((cfg0.win 2).blk t).view.read (Elt F) (addRows A0 A1) := by
  funext j
  exact block_sum A0 A1 t j

/-- The body's one store, over any two loaded blocks, leaves their element-by-element sum (the generated value leg's
    reading of the store, as an equation of whole blocks). -/
theorem stored_sum (P0 : Vec F S1x512x2048 .f32) (P1 : Vec F S512x2048 .f32) :
    View.canon [⟨r0_0, k0_pay1 P0 P1⟩] = Value.E2 P0 P1 :=
  funext (Value.canon2_eq P0 P1)

/-- WHAT POINT `t` WRITES BACK is block `t` of `x + pe`, of the arrays as the launch finds them. -/
theorem flushed_eq (c : Dev nD) (t : Fin cfg0.N) :
    (dats m 0 c).flushed 2 t
      = ((cfg0.win 2).blk t).view.read (Elt F) (addRows (V m c (Pipeline.arrRef spec0 0)) (V m c (Pipeline.arrRef spec0 1))) := by
  rw [Value.flushed2]
  unfold out0_2
  simp only [View.ld_unit_zero (S := S1x512x2048) zeros3, View.ld_unit_zero (S := S512x2048) zeros2]
  rw [stored_sum]
  exact cut_sum (V m c (Pipeline.arrRef spec0 0)) (V m c (Pipeline.arrRef spec0 1)) t

/-- THE ARRAY after the run: `x + pe`, `x` as launched and `pe` as the host operations before the launch leave it. -/
theorem final (c : Dev nD) :
    (dats m 0 c).arrAt 2 cfg0.N = addRows (m ((c : Thread nD τ).loc main_arg0)) (V m c main_v50) :=
  ((dats m 0 c).arrAt_eq_of_cover 2 (addRows (V m c (Pipeline.arrRef spec0 0)) (V m c (Pipeline.arrRef spec0 1)))
      (fun t _ => flushed_eq m c t) covered).trans
    (congrArg (fun a => addRows a (V m c main_v50)) (V_main_arg0 m c))

/-- The frame run re-posted: the result array at `x + pe`, the arguments unchanged. -/
theorem run : θ_run defs (onTc (τ := τ) (main (F := F))) ⟨m, fun _ => 0, ρ⟩ fun r => ∀ c : Dev nD,
      r.2.mem ((c : Thread nD τ).loc main_v51) = addRows (m ((c : Thread nD τ).loc main_arg0)) (V m c main_v50)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.AddRowsValue

end
-- ==== Proof.RefRun.lean ====
/-
  The reference program as ONE straight line of host operations, and its run.

  The reference computes, from the action table [4096, 3] and the frequencies `div_term` [1024], the positional
  encoding `pe` [4096, 2048] — per step a case number from the two move columns, a rotation mod 8, the pair of
  deltas the constant table holds for them, the running sums of the deltas down the steps, the two phase arrays
  `count · div_term`, and the sines of the x phases interleaved with the cosines of the y phases — and then
  `x + pe`, the encoding repeated over the 16 batch rows. Every step is a host operation on whole arrays; the
  functions jax outlined (the remainder, the `where`s, the cumulative sum) are listed at their calls over the
  buffers of each call. So @main is `seq` of the list `encodingOps ++ addRowsOps`: the operations that build
  `pe` (the same in the kernel's program, operation for operation), then the two broadcasts and the sum.

  `run`: every weakly fair execution terminates, each buffer holding the fold of the operations over the launch
  contents (`StableHlo.after`); the fold is read later, and the part of it that builds `pe` is never opened.
-/
import proofs.«154087_j72215580115573_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem

/-! ## Lists of straight lines -/

section Lines

variable {nD : Nat} {τ : Topo} {sig : RefSig} {Val : EltTy → Type} {Λ : Labels}

/-- Straight lines run one after the other are the straight line of their concatenation. -/
theorem chain_lines (Ls : List (List (HloOp τ sig Val))) :
    Pipeline.chain (Ls.map fun l => (StableHlo.seq l : Prog (TpuEff nD τ sig Val Λ .tc) PUnit)) = StableHlo.seq Ls.flatten := by
  induction Ls with
  | nil => rfl
  | cons l Ls ih => rw [List.map_cons, Pipeline.chain_cons, ih, List.flatten_cons, StableHlo.seq_append]

/-- The buffers after two lines in a row: the second line's fold over the first's. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => rw [List.cons_append, StableHlo.after_cons, StableHlo.after_cons, ih]

/-- A property of every operation of every line holds of every operation of their concatenation. -/
theorem forall_flatten {α : Type} {P : α → Prop} (Ls : List (List α)) (h : Ls.Forall fun l => l.Forall P) :
    Ls.flatten.Forall P := by
  rw [List.forall_iff_forall_mem] at h ⊢
  intro a ha
  obtain ⟨l, hl, hal⟩ := List.mem_flatten.mp ha
  exact List.forall_iff_forall_mem.mp (h l hl) a hal

/-- Lines and then one more line: the concatenation of the lines, then the last. -/
theorem flatten_append_line {α : Type} (Ls : List (List α)) (l : List α) : (Ls ++ [l]).flatten = Ls.flatten ++ l := by
  rw [List.flatten_append, List.flatten_cons, List.flatten_nil, List.append_nil]

end Lines

variable {F : FTy → Type} [FloatOps F]

/-! ## The operations, in order -/

/-- The three columns of `action` (move x, move y, rotation) as vectors of length 4096, and the modulus 8. -/
abbrev columns : List (HloOp τ sig (Elt F)) :=
  [ StableHlo.nullary main_c (fun i => lit0 (S8x5x2.rowMajor i)),
    StableHlo.unary main_arg1 main_v0 ((extractStridedSlice S4096x1 ![0, 0] · slices_S4096x3_S4096x1_0_0) : (⟨S4096x3, .i32⟩ : BufTy).Contents (Elt F) → (⟨S4096x1, .i32⟩ : BufTy).Contents (Elt F)),
    StableHlo.reshape main_v0 main_v1 rfl shapeCasts_S4096x1_S4096,
    StableHlo.unary main_arg1 main_v2 ((extractStridedSlice S4096x1 ![0, 1] · slices_S4096x3_S4096x1_0_1) : (⟨S4096x3, .i32⟩ : BufTy).Contents (Elt F) → (⟨S4096x1, .i32⟩ : BufTy).Contents (Elt F)),
    StableHlo.reshape main_v2 main_v3 rfl shapeCasts_S4096x1_S4096,
    StableHlo.unary main_arg1 main_v4 ((extractStridedSlice S4096x1 ![0, 2] · slices_S4096x3_S4096x1_0_2) : (⟨S4096x3, .i32⟩ : BufTy).Contents (Elt F) → (⟨S4096x1, .i32⟩ : BufTy).Contents (Elt F)),
    StableHlo.reshape main_v4 main_v5 rfl shapeCasts_S4096x1_S4096,
    StableHlo.nullary main_c_0 (constantI S_ 32 8#32) ]

/-- `rotation mod 8` as jnp computes a remainder: the truncated remainder, plus the modulus where its sign differs from the modulus's (the outlined `remainder`, with its own outlined scalar `where`). -/
abbrev rotMod : List (HloOp τ sig (Elt F)) :=
  [ StableHlo.TRef.unary (.of main_c_0 : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S4096, .i32⟩) (broadcastInDim S4096 ![] bcast_S_S4096),
    StableHlo.TRef.binary (.of main_v5 : StableHlo.TRef sig ⟨S4096, .i32⟩) (.of main_call0_v3 : StableHlo.TRef sig ⟨S4096, .i32⟩) (.of main_call0_v4 : StableHlo.TRef sig ⟨S4096, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S4096, .i32⟩) (broadcastInDim S4096 ![] bcast_S_S4096),
    StableHlo.TRef.binary (.of main_call0_v4 : StableHlo.TRef sig ⟨S4096, .i32⟩) (.of main_call0_v5 : StableHlo.TRef sig ⟨S4096, .i32⟩) (.of main_call0_v6 : StableHlo.TRef sig ⟨S4096, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S4096, .i32⟩) (broadcastInDim S4096 ![] bcast_S_S4096),
    StableHlo.TRef.binary (.of main_call0_v4 : StableHlo.TRef sig ⟨S4096, .i32⟩) (.of main_call0_v7 : StableHlo.TRef sig ⟨S4096, .i32⟩) (.of main_call0_v8 : StableHlo.TRef sig ⟨S4096, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S4096, .i1⟩) (broadcastInDim S4096 ![] bcast_S_S4096),
    StableHlo.TRef.binary (.of main_call0_v8 : StableHlo.TRef sig ⟨S4096, .i1⟩) (.of main_call0_v10 : StableHlo.TRef sig ⟨S4096, .i1⟩) (.of main_call0_v11 : StableHlo.TRef sig ⟨S4096, .i1⟩) (cmpi .ne),
    StableHlo.TRef.binary (.of main_call0_v11 : StableHlo.TRef sig ⟨S4096, .i1⟩) (.of main_call0_v6 : StableHlo.TRef sig ⟨S4096, .i1⟩) (.of main_call0_v12 : StableHlo.TRef sig ⟨S4096, .i1⟩) andi,
    StableHlo.TRef.unary main_call0_call0.v0 (.of main_call0_v13 : StableHlo.TRef sig ⟨S4096, .i32⟩) (broadcastInDim S4096 ![] bcast_S_S4096),
    StableHlo.TRef.binary (.of main_call0_v4 : StableHlo.TRef sig ⟨S4096, .i32⟩) (.of main_call0_v13 : StableHlo.TRef sig ⟨S4096, .i32⟩) (.of main_call0_v14 : StableHlo.TRef sig ⟨S4096, .i32⟩) addi,
    StableHlo.TRef.ternary (.of main_call0_v12 : StableHlo.TRef sig ⟨S4096, .i1⟩) (.of main_call0_v14 : StableHlo.TRef sig ⟨S4096, .i32⟩) (.of main_call0_v4 : StableHlo.TRef sig ⟨S4096, .i32⟩) (.of main_v6 : StableHlo.TRef sig ⟨S4096, .i32⟩) select ]

/-- The four tests on the two move columns (`= 1`, `= -1` of each) and the case numbers 3 and 4. -/
abbrev moveTests : List (HloOp τ sig (Elt F)) :=
  [ StableHlo.nullary main_c_1 (constantI S_ 32 1#32),
    StableHlo.unary main_c_1 main_v7 (broadcastInDim S4096 ![] bcast_S_S4096 : (⟨S_, .i32⟩ : BufTy).Contents (Elt F) → (⟨S4096, .i32⟩ : BufTy).Contents (Elt F)),
    StableHlo.binary main_v1 main_v7 main_v8 (cmpi .eq : (⟨S4096, .i32⟩ : BufTy).Contents (Elt F) → (⟨S4096, .i32⟩ : BufTy).Contents (Elt F) → (⟨S4096, .i1⟩ : BufTy).Contents (Elt F)),
    StableHlo.nullary main_c_2 (constantI S_ 32 4294967295#32),
    StableHlo.unary main_c_2 main_v9 (broadcastInDim S4096 ![] bcast_S_S4096 : (⟨S_, .i32⟩ : BufTy).Contents (Elt F) → (⟨S4096, .i32⟩ : BufTy).Contents (Elt F)),
    StableHlo.binary main_v1 main_v9 main_v10 (cmpi .eq : (⟨S4096, .i32⟩ : BufTy).Contents (Elt F) → (⟨S4096, .i32⟩ : BufTy).Contents (Elt F) → (⟨S4096, .i1⟩ : BufTy).Contents (Elt F)),
    StableHlo.nullary main_c_3 (constantI S_ 32 1#32),
    StableHlo.unary main_c_3 main_v11 (broadcastInDim S4096 ![] bcast_S_S4096 : (⟨S_, .i32⟩ : BufTy).Contents (Elt F) → (⟨S4096, .i32⟩ : BufTy).Contents (Elt F)),
    StableHlo.binary main_v3 main_v11 main_v12 (cmpi .eq : (⟨S4096, .i32⟩ : BufTy).Contents (Elt F) → (⟨S4096, .i32⟩ : BufTy).Contents (Elt F) → (⟨S4096, .i1⟩ : BufTy).Contents (Elt F)),
    StableHlo.nullary main_c_4 (constantI S_ 32 4294967295#32),
    StableHlo.unary main_c_4 main_v13 (broadcastInDim S4096 ![] bcast_S_S4096 : (⟨S_, .i32⟩ : BufTy).Contents (Elt F) → (⟨S4096, .i32⟩ : BufTy).Contents (Elt F)),
    StableHlo.binary main_v3 main_v13 main_v14 (cmpi .eq : (⟨S4096, .i32⟩ : BufTy).Contents (Elt F) → (⟨S4096, .i32⟩ : BufTy).Contents (Elt F) → (⟨S4096, .i1⟩ : BufTy).Contents (Elt F)),
    StableHlo.nullary main_c_5 (constantI S_ 32 3#32),
    StableHlo.nullary main_c_6 (constantI S_ 32 4#32) ]

/-- Innermost `where`: case 3 where move y is -1, else case 4. -/
abbrev caseDefault : List (HloOp τ sig (Elt F)) :=
  [ StableHlo.TRef.unary (.of main_c_5 : StableHlo.TRef sig ⟨S_, .i32⟩) (.of main_call1_v0 : StableHlo.TRef sig ⟨S4096, .i32⟩) (broadcastInDim S4096 ![] bcast_S_S4096),
    StableHlo.TRef.unary (.of main_c_6 : StableHlo.TRef sig ⟨S_, .i32⟩) (.of main_call1_v1 : StableHlo.TRef sig ⟨S4096, .i32⟩) (broadcastInDim S4096 ![] bcast_S_S4096),
    StableHlo.TRef.ternary (.of main_v14 : StableHlo.TRef sig ⟨S4096, .i1⟩) (.of main_call1_v0 : StableHlo.TRef sig ⟨S4096, .i32⟩) (.of main_call1_v1 : StableHlo.TRef sig ⟨S4096, .i32⟩) (.of main_v15 : StableHlo.TRef sig ⟨S4096, .i32⟩) select ]

/-- The case number 2. -/
abbrev litTwo : List (HloOp τ sig (Elt F)) :=
  [ StableHlo.nullary main_c_7 (constantI S_ 32 2#32) ]

/-- Next `where`: case 2 where move y is 1. -/
abbrev caseI1Pos : List (HloOp τ sig (Elt F)) :=
  [ StableHlo.TRef.unary (.of main_c_7 : StableHlo.TRef sig ⟨S_, .i32⟩) (.of main_call2_v0 : StableHlo.TRef sig ⟨S4096, .i32⟩) (broadcastInDim S4096 ![] bcast_S_S4096),
    StableHlo.TRef.ternary (.of main_v12 : StableHlo.TRef sig ⟨S4096, .i1⟩) (.of main_call2_v0 : StableHlo.TRef sig ⟨S4096, .i32⟩) (.of main_v15 : StableHlo.TRef sig ⟨S4096, .i32⟩) (.of main_v16 : StableHlo.TRef sig ⟨S4096, .i32⟩) select ]

/-- The case number 1. -/
abbrev litOne : List (HloOp τ sig (Elt F)) :=
  [ StableHlo.nullary main_c_8 (constantI S_ 32 1#32) ]

/-- Next `where`: case 1 where move x is -1. -/
abbrev caseI0Neg : List (HloOp τ sig (Elt F)) :=
  [ StableHlo.TRef.unary (.of main_c_8 : StableHlo.TRef sig ⟨S_, .i32⟩) (.of main_call3_v0 : StableHlo.TRef sig ⟨S4096, .i32⟩) (broadcastInDim S4096 ![] bcast_S_S4096),
    StableHlo.TRef.ternary (.of main_v10 : StableHlo.TRef sig ⟨S4096, .i1⟩) (.of main_call3_v0 : StableHlo.TRef sig ⟨S4096, .i32⟩) (.of main_v16 : StableHlo.TRef sig ⟨S4096, .i32⟩) (.of main_v17 : StableHlo.TRef sig ⟨S4096, .i32⟩) select ]

/-- The case number 0. -/
abbrev litZero : List (HloOp τ sig (Elt F)) :=
  [ StableHlo.nullary main_c_9 (constantI S_ 32 0#32) ]

/-- Outermost `where`: case 0 where move x is 1. -/
abbrev caseI0Pos : List (HloOp τ sig (Elt F)) :=
  [ StableHlo.TRef.unary (.of main_c_9 : StableHlo.TRef sig ⟨S_, .i32⟩) (.of main_call4_v0 : StableHlo.TRef sig ⟨S4096, .i32⟩) (broadcastInDim S4096 ![] bcast_S_S4096),
    StableHlo.TRef.ternary (.of main_v8 : StableHlo.TRef sig ⟨S4096, .i1⟩) (.of main_call4_v0 : StableHlo.TRef sig ⟨S4096, .i32⟩) (.of main_v17 : StableHlo.TRef sig ⟨S4096, .i32⟩) (.of main_v18 : StableHlo.TRef sig ⟨S4096, .i32⟩) select ]

/-- The table lookup `TAB[rot, case]`: each index wrapped if negative (plus 8, plus 5), the two stacked as a [4096, 2] index array, and the gather of the row of two deltas from the constant table. -/
abbrev tableLookup : List (HloOp τ sig (Elt F)) :=
  [ StableHlo.nullary main_c_10 (constantI S_ 32 0#32),
    StableHlo.unary main_c_10 main_v19 (broadcastInDim S4096 ![] bcast_S_S4096 : (⟨S_, .i32⟩ : BufTy).Contents (Elt F) → (⟨S4096, .i32⟩ : BufTy).Contents (Elt F)),
    StableHlo.binary main_v6 main_v19 main_v20 (cmpi .slt : (⟨S4096, .i32⟩ : BufTy).Contents (Elt F) → (⟨S4096, .i32⟩ : BufTy).Contents (Elt F) → (⟨S4096, .i1⟩ : BufTy).Contents (Elt F)),
    StableHlo.nullary main_c_11 (constantI S_ 32 8#32),
    StableHlo.unary main_c_11 main_v21 (broadcastInDim S4096 ![] bcast_S_S4096 : (⟨S_, .i32⟩ : BufTy).Contents (Elt F) → (⟨S4096, .i32⟩ : BufTy).Contents (Elt F)),
    StableHlo.binary main_v6 main_v21 main_v22 (addi : (⟨S4096, .i32⟩ : BufTy).Contents (Elt F) → (⟨S4096, .i32⟩ : BufTy).Contents (Elt F) → (⟨S4096, .i32⟩ : BufTy).Contents (Elt F)),
    StableHlo.ternary main_v20 main_v22 main_v6 main_v23 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_12 (constantI S_ 32 0#32),
    StableHlo.unary main_c_12 main_v24 (broadcastInDim S4096 ![] bcast_S_S4096 : (⟨S_, .i32⟩ : BufTy).Contents (Elt F) → (⟨S4096, .i32⟩ : BufTy).Contents (Elt F)),
    StableHlo.binary main_v18 main_v24 main_v25 (cmpi .slt : (⟨S4096, .i32⟩ : BufTy).Contents (Elt F) → (⟨S4096, .i32⟩ : BufTy).Contents (Elt F) → (⟨S4096, .i1⟩ : BufTy).Contents (Elt F)),
    StableHlo.nullary main_c_13 (constantI S_ 32 5#32),
    StableHlo.unary main_c_13 main_v26 (broadcastInDim S4096 ![] bcast_S_S4096 : (⟨S_, .i32⟩ : BufTy).Contents (Elt F) → (⟨S4096, .i32⟩ : BufTy).Contents (Elt F)),
    StableHlo.binary main_v18 main_v26 main_v27 (addi : (⟨S4096, .i32⟩ : BufTy).Contents (Elt F) → (⟨S4096, .i32⟩ : BufTy).Contents (Elt F) → (⟨S4096, .i32⟩ : BufTy).Contents (Elt F)),
    StableHlo.ternary main_v25 main_v27 main_v18 main_v28 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v23 main_v29 (broadcastInDim S4096x1 ![0] bcast_S4096_S4096x1_0 : (⟨S4096, .i32⟩ : BufTy).Contents (Elt F) → (⟨S4096x1, .i32⟩ : BufTy).Contents (Elt F)),
    StableHlo.unary main_v28 main_v30 (broadcastInDim S4096x1 ![0] bcast_S4096_S4096x1_0 : (⟨S4096, .i32⟩ : BufTy).Contents (Elt F) → (⟨S4096x1, .i32⟩ : BufTy).Contents (Elt F)),
    StableHlo.binary main_v29 main_v30 main_v31 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    StableHlo.binary main_c main_v31 main_v32 ((fun x i => Host.gather gather_S8x5x2_S4096x2_S4096x2_1_01_n_n_01_1_112 x i) : (⟨S8x5x2, .i32⟩ : BufTy).Contents (Elt F) → (⟨S4096x2, .i32⟩ : BufTy).Contents (Elt F) → (⟨S4096x2, .i32⟩ : BufTy).Contents (Elt F)) ]

/-- The running sums of the deltas down the 4096 steps (a cumulative sum: a windowed integer sum over the 4096 rows ending at each row, from zero). -/
abbrev runningCounts : List (HloOp τ sig (Elt F)) :=
  [ StableHlo.TRef.nullary (.of main_call5_call0_c : StableHlo.TRef sig ⟨S_, .i32⟩) (constantI S_ 32 0#32),
    StableHlo.TRef.unary (.of main_call5_call0_c : StableHlo.TRef sig ⟨S_, .i32⟩) (.of main_call5_call0_v0 : StableHlo.TRef sig ⟨S_, .i32⟩) (broadcastInDim S_ ![] bcast_S_S_),
    StableHlo.TRef.binary (.of main_v32 : StableHlo.TRef sig ⟨S4096x2, .i32⟩) (.of main_call5_call0_v0 : StableHlo.TRef sig ⟨S_, .i32⟩) (.of main_v33 : StableHlo.TRef sig ⟨S4096x2, .i32⟩) (fun x v => Host.reduceWindow IntOp.addi ![4096, 1] ![1, 1] ![4095, 0] ![0, 0] x v reduceWindows_S4096x2_S4096x2_w4096s1p4095_0_w1s1p0_0 h_S_) ]

/-- The counts as floats, their two columns, each spread over the 1024 frequencies and multiplied by `div_term`: the two phase arrays [4096, 1024]. -/
abbrev phases : List (HloOp τ sig (Elt F)) :=
  [ StableHlo.unary main_v33 main_v34 (sitofp .f32 : (⟨S4096x2, .i32⟩ : BufTy).Contents (Elt F) → (⟨S4096x2, .f32⟩ : BufTy).Contents (Elt F)),
    StableHlo.unary main_v34 main_v35 ((extractStridedSlice S4096x1 ![0, 0] · slices_S4096x2_S4096x1_0_0) : (⟨S4096x2, .f32⟩ : BufTy).Contents (Elt F) → (⟨S4096x1, .f32⟩ : BufTy).Contents (Elt F)),
    StableHlo.unary main_arg2 main_v36 (broadcastInDim S1x1024 ![1] bcast_S1024_S1x1024_1 : (⟨S1024, .f32⟩ : BufTy).Contents (Elt F) → (⟨S1x1024, .f32⟩ : BufTy).Contents (Elt F)),
    StableHlo.unary main_v35 main_v37 (broadcastInDim S4096x1024 ![0, 1] bcast_S4096x1_S4096x1024_0_1 : (⟨S4096x1, .f32⟩ : BufTy).Contents (Elt F) → (⟨S4096x1024, .f32⟩ : BufTy).Contents (Elt F)),
    StableHlo.unary main_v36 main_v38 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v37 main_v38 main_v39 (mulf : (⟨S4096x1024, .f32⟩ : BufTy).Contents (Elt F) → (⟨S4096x1024, .f32⟩ : BufTy).Contents (Elt F) → (⟨S4096x1024, .f32⟩ : BufTy).Contents (Elt F)),
    StableHlo.unary main_v34 main_v40 ((extractStridedSlice S4096x1 ![0, 1] · slices_S4096x2_S4096x1_0_1) : (⟨S4096x2, .f32⟩ : BufTy).Contents (Elt F) → (⟨S4096x1, .f32⟩ : BufTy).Contents (Elt F)),
    StableHlo.unary main_arg2 main_v41 (broadcastInDim S1x1024 ![1] bcast_S1024_S1x1024_1 : (⟨S1024, .f32⟩ : BufTy).Contents (Elt F) → (⟨S1x1024, .f32⟩ : BufTy).Contents (Elt F)),
    StableHlo.unary main_v40 main_v42 (broadcastInDim S4096x1024 ![0, 1] bcast_S4096x1_S4096x1024_0_1 : (⟨S4096x1, .f32⟩ : BufTy).Contents (Elt F) → (⟨S4096x1024, .f32⟩ : BufTy).Contents (Elt F)),
    StableHlo.unary main_v41 main_v43 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v42 main_v43 main_v44 (mulf : (⟨S4096x1024, .f32⟩ : BufTy).Contents (Elt F) → (⟨S4096x1024, .f32⟩ : BufTy).Contents (Elt F) → (⟨S4096x1024, .f32⟩ : BufTy).Contents (Elt F)) ]

/-- The sine of the x phases and the cosine of the y phases, interleaved along a new last axis of 2 and flattened: the encoding [4096, 2048], even columns sines, odd columns cosines. -/
abbrev sinCos : List (HloOp τ sig (Elt F)) :=
  [ StableHlo.unary main_v39 main_v45 (Host.sin : (⟨S4096x1024, .f32⟩ : BufTy).Contents (Elt F) → (⟨S4096x1024, .f32⟩ : BufTy).Contents (Elt F)),
    StableHlo.unary main_v44 main_v46 (Host.cos : (⟨S4096x1024, .f32⟩ : BufTy).Contents (Elt F) → (⟨S4096x1024, .f32⟩ : BufTy).Contents (Elt F)),
    StableHlo.unary main_v45 main_v47 (broadcastInDim S4096x1024x1 ![0, 1] bcast_S4096x1024_S4096x1024x1_0_1 : (⟨S4096x1024, .f32⟩ : BufTy).Contents (Elt F) → (⟨S4096x1024x1, .f32⟩ : BufTy).Contents (Elt F)),
    StableHlo.unary main_v46 main_v48 (broadcastInDim S4096x1024x1 ![0, 1] bcast_S4096x1024_S4096x1024x1_0_1 : (⟨S4096x1024, .f32⟩ : BufTy).Contents (Elt F) → (⟨S4096x1024x1, .f32⟩ : BufTy).Contents (Elt F)),
    StableHlo.binary main_v47 main_v48 main_v49 ((fun a b => concatenate S4096x1024x2 2 [⟨S4096x1024x1, a⟩, ⟨S4096x1024x1, b⟩] concatenates_S4096x1024x1_S4096x1024x1_S4096x1024x2_d2) : (⟨S4096x1024x1, .f32⟩ : BufTy).Contents (Elt F) → (⟨S4096x1024x1, .f32⟩ : BufTy).Contents (Elt F) → (⟨S4096x1024x2, .f32⟩ : BufTy).Contents (Elt F)),
    StableHlo.reshape main_v49 main_v50 rfl shapeCasts_S4096x1024x2_S4096x2048 ]

/-- The sum: the encoding given a leading axis of 1, repeated over the 16 batch rows, and added to `x`. -/
abbrev addRowsOps : List (HloOp τ sig (Elt F)) :=
  [ StableHlo.unary main_v50 main_v51 (broadcastInDim S1x4096x2048 ![1, 2] bcast_S4096x2048_S1x4096x2048_1_2 : (⟨S4096x2048, .f32⟩ : BufTy).Contents (Elt F) → (⟨S1x4096x2048, .f32⟩ : BufTy).Contents (Elt F)),
    StableHlo.unary main_v51 main_v52 (broadcastInDim S16x4096x2048 ![0, 1, 2] bcast_S1x4096x2048_S16x4096x2048_0_1_2 : (⟨S1x4096x2048, .f32⟩ : BufTy).Contents (Elt F) → (⟨S16x4096x2048, .f32⟩ : BufTy).Contents (Elt F)),
    StableHlo.binary main_arg0 main_v52 main_v53 (addf : (⟨S16x4096x2048, .f32⟩ : BufTy).Contents (Elt F) → (⟨S16x4096x2048, .f32⟩ : BufTy).Contents (Elt F) → (⟨S16x4096x2048, .f32⟩ : BufTy).Contents (Elt F)) ]

/-- The lines that build the encoding, in order. -/
abbrev encodingLines : List (List (HloOp τ sig (Elt F))) :=
  [columns, rotMod, moveTests, caseDefault, litTwo, caseI1Pos, litOne, caseI0Neg, litZero, caseI0Pos, tableLookup, runningCounts, phases, sinCos]

/-- The operations that build the encoding `pe` (buffer `main_v50`), in order. -/
abbrev encodingOps : List (HloOp τ sig (Elt F)) := encodingLines.flatten

/-! ## What the operations touch -/

theorem columns_sub : (columns : List (HloOp τ sig (Elt F))).Forall fun op => op.bufs ⊆ StableHlo.tcRefs τ sig :=
  ⟨StableHlo.nullary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub ..⟩
theorem columns_fresh : (columns : List (HloOp τ sig (Elt F))).Forall fun op => op.fresh = ∅ := by
  simp only [List.Forall]; repeat' constructor
theorem rotMod_sub : (rotMod : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
theorem rotMod_fresh : (rotMod : List (HloOp τ sig (Elt F))).Forall fun op => op.fresh = ∅ := by
  simp only [List.Forall]; repeat' constructor
theorem moveTests_sub : (moveTests : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub ..⟩
theorem moveTests_fresh : (moveTests : List (HloOp τ sig (Elt F))).Forall fun op => op.fresh = ∅ := by
  simp only [List.Forall]; repeat' constructor
theorem caseDefault_sub : (caseDefault : List (HloOp τ sig (Elt F))).Forall fun op => op.bufs ⊆ StableHlo.tcRefs τ sig :=
  ⟨StableHlo.unary_bufs_sub .., StableHlo.unary_bufs_sub .., StableHlo.ternary_bufs_sub ..⟩
theorem caseDefault_fresh : (caseDefault : List (HloOp τ sig (Elt F))).Forall fun op => op.fresh = ∅ := by
  simp only [List.Forall]; repeat' constructor
theorem litTwo_sub : (litTwo : List (HloOp τ sig (Elt F))).Forall fun op => op.bufs ⊆ StableHlo.tcRefs τ sig :=
  StableHlo.nullary_bufs_sub ..
theorem litTwo_fresh : (litTwo : List (HloOp τ sig (Elt F))).Forall fun op => op.fresh = ∅ := by
  simp only [List.Forall]; repeat' constructor
theorem caseI1Pos_sub : (caseI1Pos : List (HloOp τ sig (Elt F))).Forall fun op => op.bufs ⊆ StableHlo.tcRefs τ sig :=
  ⟨StableHlo.unary_bufs_sub .., StableHlo.ternary_bufs_sub ..⟩
theorem caseI1Pos_fresh : (caseI1Pos : List (HloOp τ sig (Elt F))).Forall fun op => op.fresh = ∅ := by
  simp only [List.Forall]; repeat' constructor
theorem litOne_sub : (litOne : List (HloOp τ sig (Elt F))).Forall fun op => op.bufs ⊆ StableHlo.tcRefs τ sig :=
  StableHlo.nullary_bufs_sub ..
theorem litOne_fresh : (litOne : List (HloOp τ sig (Elt F))).Forall fun op => op.fresh = ∅ := by
  simp only [List.Forall]; repeat' constructor
theorem caseI0Neg_sub : (caseI0Neg : List (HloOp τ sig (Elt F))).Forall fun op => op.bufs ⊆ StableHlo.tcRefs τ sig :=
  ⟨StableHlo.unary_bufs_sub .., StableHlo.ternary_bufs_sub ..⟩
theorem caseI0Neg_fresh : (caseI0Neg : List (HloOp τ sig (Elt F))).Forall fun op => op.fresh = ∅ := by
  simp only [List.Forall]; repeat' constructor
theorem litZero_sub : (litZero : List (HloOp τ sig (Elt F))).Forall fun op => op.bufs ⊆ StableHlo.tcRefs τ sig :=
  StableHlo.nullary_bufs_sub ..
theorem litZero_fresh : (litZero : List (HloOp τ sig (Elt F))).Forall fun op => op.fresh = ∅ := by
  simp only [List.Forall]; repeat' constructor
theorem caseI0Pos_sub : (caseI0Pos : List (HloOp τ sig (Elt F))).Forall fun op => op.bufs ⊆ StableHlo.tcRefs τ sig :=
  ⟨StableHlo.unary_bufs_sub .., StableHlo.ternary_bufs_sub ..⟩
theorem caseI0Pos_fresh : (caseI0Pos : List (HloOp τ sig (Elt F))).Forall fun op => op.fresh = ∅ := by
  simp only [List.Forall]; repeat' constructor
theorem tableLookup_sub : (tableLookup : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub ..⟩
theorem tableLookup_fresh : (tableLookup : List (HloOp τ sig (Elt F))).Forall fun op => op.fresh = ∅ := by
  simp only [List.Forall]; repeat' constructor
theorem runningCounts_sub : (runningCounts : List (HloOp τ sig (Elt F))).Forall fun op => op.bufs ⊆ StableHlo.tcRefs τ sig :=
  ⟨StableHlo.nullary_bufs_sub .., StableHlo.unary_bufs_sub .., StableHlo.binary_bufs_sub ..⟩
theorem runningCounts_fresh : (runningCounts : List (HloOp τ sig (Elt F))).Forall fun op => op.fresh = ∅ := by
  simp only [List.Forall]; repeat' constructor
theorem phases_sub : (phases : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub ..⟩
theorem phases_fresh : (phases : List (HloOp τ sig (Elt F))).Forall fun op => op.fresh = ∅ := by
  simp only [List.Forall]; repeat' constructor
theorem sinCos_sub : (sinCos : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.reshape_bufs_sub ..⟩
theorem sinCos_fresh : (sinCos : List (HloOp τ sig (Elt F))).Forall fun op => op.fresh = ∅ := by
  simp only [List.Forall]; repeat' constructor
theorem addRowsOps_sub : (addRowsOps : List (HloOp τ sig (Elt F))).Forall fun op => op.bufs ⊆ StableHlo.tcRefs τ sig :=
  ⟨StableHlo.unary_bufs_sub .., StableHlo.unary_bufs_sub .., StableHlo.binary_bufs_sub ..⟩
theorem addRowsOps_fresh : (addRowsOps : List (HloOp τ sig (Elt F))).Forall fun op => op.fresh = ∅ := by
  simp only [List.Forall]; repeat' constructor

/-- Every operation touches TensorCore references only. -/
theorem ops_sub : (encodingOps ++ addRowsOps : List (HloOp τ sig (Elt F))).Forall fun op => op.bufs ⊆ StableHlo.tcRefs τ sig := by
  have h := forall_flatten (P := fun op : HloOp τ sig (Elt F) => op.bufs ⊆ StableHlo.tcRefs τ sig) (encodingLines ++ [addRowsOps]) (by
    simp only [List.cons_append, List.nil_append, List.Forall]
    exact ⟨columns_sub, rotMod_sub, moveTests_sub, caseDefault_sub, litTwo_sub, caseI1Pos_sub, litOne_sub, caseI0Neg_sub, litZero_sub, caseI0Pos_sub, tableLookup_sub, runningCounts_sub, phases_sub, sinCos_sub, addRowsOps_sub⟩)
  rwa [flatten_append_line] at h

/-- Every operation determines its results. -/
theorem ops_fresh : ∀ op ∈ (encodingOps ++ addRowsOps : List (HloOp τ sig (Elt F))), op.fresh = ∅ := by
  have h := forall_flatten (P := fun op : HloOp τ sig (Elt F) => op.fresh = ∅) (encodingLines ++ [addRowsOps]) (by
    simp only [List.cons_append, List.nil_append, List.Forall]
    exact ⟨columns_fresh, rotMod_fresh, moveTests_fresh, caseDefault_fresh, litTwo_fresh, caseI1Pos_fresh, litOne_fresh, caseI0Neg_fresh, litZero_fresh, caseI0Pos_fresh, tableLookup_fresh, runningCounts_fresh, phases_fresh, sinCos_fresh, addRowsOps_fresh⟩)
  rw [flatten_append_line] at h
  exact List.forall_iff_forall_mem.mp h

/-! ## @main is that straight line -/

/-- The first window of @main, line by line (the outlined functions' bodies unfold at their calls). -/
theorem main_part0_lines (c : Dev nD) : main_part0 (F := F) c = (Pipeline.chainK
  [ StableHlo.seq columns,
    StableHlo.seq rotMod,
    StableHlo.seq moveTests,
    StableHlo.seq caseDefault,
    StableHlo.seq litTwo,
    StableHlo.seq caseI1Pos,
    StableHlo.seq litOne,
    StableHlo.seq caseI0Neg,
    StableHlo.seq litZero,
    StableHlo.seq caseI0Pos,
    StableHlo.seq tableLookup,
    StableHlo.seq runningCounts ]
  (StableHlo.seq phases) : Prog (TpuEff nD τ sig (Elt F) (Pipeline.Sig Λ₀ (Fin 0) fun p => (pcfgs (F := F) p).Adm) .tc) PUnit) := by
  chain_rfl

/-- The last window of @main: the sines and cosines interleaved, then the sum. -/
theorem main_part1_lines (c : Dev nD) : main_part1 (F := F) c = (Pipeline.chain
  [ StableHlo.seq sinCos,
    StableHlo.seq addRowsOps ] : Prog (TpuEff nD τ sig (Elt F) (Pipeline.Sig Λ₀ (Fin 0) fun p => (pcfgs (F := F) p).Adm) .tc) PUnit) := by
  chain_rfl

/-- @main is the straight line of all its operations. -/
theorem main_eq (c : Dev nD) : main (F := F) c = StableHlo.seq (encodingOps ++ addRowsOps) := by
  show (main_part0 (F := F) c >>= fun _ => main_part1 (F := F) c) = _
  rewrite [main_part1_lines, main_part0_lines, Pipeline.chainK_bind_chain]
  refine (chain_lines (encodingLines (F := F) ++ [addRowsOps])).trans ?_
  rw [flatten_append_line]

/-! ## The run -/

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and each TensorCore buffer
    ends at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after (encodingOps ++ addRowsOps) (StableHlo.launchContents m c) (Proc.devRef .tc b) :=
  StableHlo.run_seq scopedRefs_eq scopedSems_eq defs main (fun _ => encodingOps ++ addRowsOps) main_eq (fun _ => ops_sub) m ρ
    (fun _ => ops_fresh)

end Cert.ReferenceIdeal.RefRun

end
-- ==== Proof.RefValue.lean ====
/-
  The reference's result, read back: `x + pe`.

  After the line that builds the encoding, the last three operations give `pe` a leading axis of 1, repeat it over the
  16 batch rows and add it to `x`: at (b, r, d) the result is `x (b, r, d) + pe (r, d)` (`AddRows.broadcast_add`), with
  `pe` whatever the encoding's line left in `main_v50` — its fold is kept closed — and `x` as launched, since no
  operation writes an argument.
-/
import proofs.«154087_j72215580115573_1_alg».proof.Proof.RefRun
import proofs.«154087_j72215580115573_1_alg».proof.Proof.AddRows

noncomputable section

namespace Cert.ReferenceIdeal.RefValue

open Cert.ReferenceIdeal Cert.ReferenceIdeal.Gen Cert.ReferenceIdeal.RefRun Idealize.ShloMosaic Idealize.ShloMosaic.TcCoe Idealize.SL.Sem
open Cert.AddRows

variable {F : FTy → Type} [FloatOps F]

/-! ## The arguments are never written -/

/-- No operation that builds the encoding writes `main_arg0`. -/
theorem encoding_keeps_main_arg0 (V : Valuation τ sig (Elt F)) :
    StableHlo.after (encodingOps (F := F)) V (Proc.devRef .tc main_arg0) = V (Proc.devRef .tc main_arg0) :=
  StableHlo.after_of_forall_not_mem (b := Proc.devRef .tc main_arg0) _ _ (List.forall_iff_forall_mem.mp (by
    simp only [encodingOps, encodingLines, columns, rotMod, moveTests, caseDefault, litTwo, caseI1Pos, litOne, caseI0Neg, litZero, caseI0Pos, tableLookup, runningCounts, phases, sinCos, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor do the two broadcasts and the sum. -/
theorem addRows_keeps_main_arg0 (V : Valuation τ sig (Elt F)) :
    StableHlo.after (addRowsOps (F := F)) V (Proc.devRef .tc main_arg0) = V (Proc.devRef .tc main_arg0) :=
  StableHlo.after_of_forall_not_mem (b := Proc.devRef .tc main_arg0) _ _ (List.forall_iff_forall_mem.mp (by
    simp only [addRowsOps, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- So the whole line leaves `main_arg0` as launched. -/
theorem keeps_main_arg0 (V : Valuation τ sig (Elt F)) :
    StableHlo.after (encodingOps ++ addRowsOps) V (Proc.devRef .tc main_arg0) = V (Proc.devRef .tc main_arg0) := by
  rw [after_append, addRows_keeps_main_arg0, encoding_keeps_main_arg0]

/-- No operation that builds the encoding writes `main_arg1`. -/
theorem encoding_keeps_main_arg1 (V : Valuation τ sig (Elt F)) :
    StableHlo.after (encodingOps (F := F)) V (Proc.devRef .tc main_arg1) = V (Proc.devRef .tc main_arg1) :=
  StableHlo.after_of_forall_not_mem (b := Proc.devRef .tc main_arg1) _ _ (List.forall_iff_forall_mem.mp (by
    simp only [encodingOps, encodingLines, columns, rotMod, moveTests, caseDefault, litTwo, caseI1Pos, litOne, caseI0Neg, litZero, caseI0Pos, tableLookup, runningCounts, phases, sinCos, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor do the two broadcasts and the sum. -/
theorem addRows_keeps_main_arg1 (V : Valuation τ sig (Elt F)) :
    StableHlo.after (addRowsOps (F := F)) V (Proc.devRef .tc main_arg1) = V (Proc.devRef .tc main_arg1) :=
  StableHlo.after_of_forall_not_mem (b := Proc.devRef .tc main_arg1) _ _ (List.forall_iff_forall_mem.mp (by
    simp only [addRowsOps, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- So the whole line leaves `main_arg1` as launched. -/
theorem keeps_main_arg1 (V : Valuation τ sig (Elt F)) :
    StableHlo.after (encodingOps ++ addRowsOps) V (Proc.devRef .tc main_arg1) = V (Proc.devRef .tc main_arg1) := by
  rw [after_append, addRows_keeps_main_arg1, encoding_keeps_main_arg1]

/-- No operation that builds the encoding writes `main_arg2`. -/
theorem encoding_keeps_main_arg2 (V : Valuation τ sig (Elt F)) :
    StableHlo.after (encodingOps (F := F)) V (Proc.devRef .tc main_arg2) = V (Proc.devRef .tc main_arg2) :=
  StableHlo.after_of_forall_not_mem (b := Proc.devRef .tc main_arg2) _ _ (List.forall_iff_forall_mem.mp (by
    simp only [encodingOps, encodingLines, columns, rotMod, moveTests, caseDefault, litTwo, caseI1Pos, litOne, caseI0Neg, litZero, caseI0Pos, tableLookup, runningCounts, phases, sinCos, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor do the two broadcasts and the sum. -/
theorem addRows_keeps_main_arg2 (V : Valuation τ sig (Elt F)) :
    StableHlo.after (addRowsOps (F := F)) V (Proc.devRef .tc main_arg2) = V (Proc.devRef .tc main_arg2) :=
  StableHlo.after_of_forall_not_mem (b := Proc.devRef .tc main_arg2) _ _ (List.forall_iff_forall_mem.mp (by
    simp only [addRowsOps, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- So the whole line leaves `main_arg2` as launched. -/
theorem keeps_main_arg2 (V : Valuation τ sig (Elt F)) :
    StableHlo.after (encodingOps ++ addRowsOps) V (Proc.devRef .tc main_arg2) = V (Proc.devRef .tc main_arg2) := by
  rw [after_append, addRows_keeps_main_arg2, encoding_keeps_main_arg2]

/-! ## The result -/

/-- The two broadcasts and the sum, over any contents `W` of the buffers before them: `x + pe` of `W`'s `x` and `pe`. -/
theorem addRows_result (W : Valuation τ sig (Elt F)) :
    (StableHlo.after (addRowsOps (F := F)) W (Proc.devRef .tc main_v53) : S16x4096x2048.Idx → Elt F .f32)
      = addRows (W (Proc.devRef .tc main_arg0)) (W (Proc.devRef .tc main_v50)) := by
  refine Eq.trans ?_ (broadcast_add bcast_S4096x2048_S1x4096x2048_1_2 bcast_S1x4096x2048_S16x4096x2048_0_1_2
    (W (Proc.devRef .tc main_arg0)) (W (Proc.devRef .tc main_v50)))
  simp only [addRowsOps]
  after_results

/-- The result buffer after the whole line: `x + pe`, `x` as launched, `pe` what the encoding's line leaves. -/
theorem result_eq (V : Valuation τ sig (Elt F)) :
    (StableHlo.after (encodingOps ++ addRowsOps) V (Proc.devRef .tc main_v53) : S16x4096x2048.Idx → Elt F .f32)
      = addRows (V (Proc.devRef .tc main_arg0)) (StableHlo.after encodingOps V (Proc.devRef .tc main_v50)) := by
  rw [after_append, addRows_result, encoding_keeps_main_arg0]

/-! ## The run, read -/

/-- Every weakly fair execution of the reference terminates with the result at `x + pe` and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53)
        = addRows (m ((c.tc : Thread nD τ).loc main_arg0)) (StableHlo.after encodingOps (StableHlo.launchContents m c) (Proc.devRef .tc main_v50))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c main_v53).trans (result_eq _),
      (h c main_arg0).trans (keeps_main_arg0 _),
      (h c main_arg1).trans (keeps_main_arg1 _),
      (h c main_arg2).trans (keeps_main_arg2 _)⟩)
    (RefRun.run m ρ)

end Cert.ReferenceIdeal.RefValue

end
-- ==== Proof.Encoding.lean ====
/-
  The positional encoding is the same array in the two programs.

  Both programs build `pe` from the action table and `div_term` by the same host operations in the same order (the
  case number of each step, its rotation mod 8, the table's pair of deltas, their running sums, the phases, the
  interleaved sines and cosines). In the kernel's program these are the operations before the launch, and the window
  of `pe` finds their result in its buffer (`Gen.V m c main_v50`); in the reference they are the line
  `encodingOps`. Read back, each side is ONE term of pure operations over the launch contents of the two arguments —
  the same term, since the operations are the same — so from memories that agree on the two arguments the two arrays are
  equal. No operation is opened: the gather, the windowed sum, the sine and the cosine stay names.
-/
import proofs.«154087_j72215580115573_1_alg».proof.Proof.Gen.KernelIdeal.Frame
import proofs.«154087_j72215580115573_1_alg».proof.Proof.RefRun

noncomputable section

namespace Cert.Encoding

open Idealize.ShloMosaic Idealize.ShloMosaic.TcCoe Idealize.SL.Sem Idealize.ShloMosaic.StableHlo

variable {F : FTy → Type} [FloatOps F]

/-- Two arrays of one shape joined along an axis, the two operands as plain arguments (the library's `concatenate`
    takes them inside a list that its side condition reads, which keeps a rewriting pass out of them). -/
def join2 {α : Type} (t : Shape) (d : Fin t.rank) (s : Shape) (h : Shape.Concatenates [s, s] t d) (a b : s.Idx → α) : t.Idx → α :=
  concatenate t d [⟨s, a⟩, ⟨s, b⟩] h

theorem concatenate_pair {α : Type} (t : Shape) (d : Fin t.rank) (s : Shape) (h : Shape.Concatenates [s, s] t d) (a b : s.Idx → α) :
    concatenate t d [⟨s, a⟩, ⟨s, b⟩] h = join2 t d s h a b := rfl

attribute [local irreducible] Host.gather Host.reduceWindow Host.remsi Host.sin Host.cos concatenate extractStridedSlice
  broadcastInDim shapeCast sitofp in
set_option maxRecDepth 16384 in
-- two folds of ninety-six operations each read back in one rewriting pass
set_option maxHeartbeats 4000000 in
/-- From memories that agree on `action` and `div_term`, the encoding the reference's line leaves in `main_v50` is the
    array the kernel's window of `pe` finds. -/
theorem same (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (StableHlo.after (Cert.ReferenceIdeal.RefRun.encodingOps (F := F)) (StableHlo.launchContents m' c)
        (Proc.devRef .tc Cert.ReferenceIdeal.main_v50) : Cert.ReferenceIdeal.S4096x2048.Idx → Elt F .f32)
      = Cert.KernelIdeal.Gen.V m c Cert.KernelIdeal.main_v50 := by
  dsimp only [Cert.KernelIdeal.Gen.V]
  simp only [Cert.ReferenceIdeal.RefRun.encodingOps, Cert.ReferenceIdeal.RefRun.encodingLines,
    Cert.ReferenceIdeal.RefRun.columns, Cert.ReferenceIdeal.RefRun.rotMod, Cert.ReferenceIdeal.RefRun.moveTests, Cert.ReferenceIdeal.RefRun.caseDefault, Cert.ReferenceIdeal.RefRun.litTwo, Cert.ReferenceIdeal.RefRun.caseI1Pos, Cert.ReferenceIdeal.RefRun.litOne, Cert.ReferenceIdeal.RefRun.caseI0Neg, Cert.ReferenceIdeal.RefRun.litZero, Cert.ReferenceIdeal.RefRun.caseI0Pos, Cert.ReferenceIdeal.RefRun.tableLookup, Cert.ReferenceIdeal.RefRun.runningCounts, Cert.ReferenceIdeal.RefRun.phases, Cert.ReferenceIdeal.RefRun.sinCos,
    Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12,
    List.flatten_cons, List.flatten_nil, List.append_nil, List.cons_append, List.nil_append]
  simp (disch := decide) only [after_cons, after_nil, concatenate_pair,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  have e1 : StableHlo.launchContents m' c (Proc.devRef .tc Cert.ReferenceIdeal.main_arg1)
      = m (c, Proc.devRef .tc Cert.KernelIdeal.main_arg1) := h1
  have e2 : StableHlo.launchContents m' c (Proc.devRef .tc Cert.ReferenceIdeal.main_arg2)
      = m (c, Proc.devRef .tc Cert.KernelIdeal.main_arg2) := h2
  rw [e1, e2]
  rfl

end Cert.Encoding

end
-- ==== Proof.lean ====
/-
  The certificate of the positional-encoding add: `forward(x, action, div_term) = x + pe(action, div_term)`, the kernel
  against its jnp reference, over the extended reals.

  Both programs compute the encoding `pe` [4096, 2048] from the action table and the frequencies by the same host
  operations; the kernel then adds it to `x` [16, 4096, 2048] tile by tile (a grid of 8 row tiles × 16 batch rows,
  each point adding a [512, 2048] tile of `pe` to the tile of `x` of one batch row), the reference in one broadcast
  sum. At every index both results are `x (b, r, d) + pe (r, d)` with the same two numbers, so no law of the extended
  reals is used and the precondition (finite inputs) is never opened:
  * the kernel's result array is `addRows x pe` (Proof/KernelValue.lean, over the generated value leg);
  * the reference's is `addRows x pe'` (Proof/RefValue.lean, over its run, Proof/RefRun.lean);
  * `pe = pe'` from memories that agree on the arguments (Proof/Encoding.lean).
  The frames of the two kernel programs are the generated ones, the reference's is its run with the result dropped,
  and the idealization rewrote nothing.
-/
import proofs.«154087_j72215580115573_1_alg».proof.Defs
import proofs.«154087_j72215580115573_1_alg».proof.Proof.Gen.Kernel
import proofs.«154087_j72215580115573_1_alg».proof.Proof.Gen.Kernel.Skeleton
import proofs.«154087_j72215580115573_1_alg».proof.Proof.Gen.Kernel.Launch
import proofs.«154087_j72215580115573_1_alg».proof.Proof.Gen.Kernel.Points
import proofs.«154087_j72215580115573_1_alg».proof.Proof.Gen.Kernel.Frame
import proofs.«154087_j72215580115573_1_alg».proof.Proof.Gen.KernelIdeal
import proofs.«154087_j72215580115573_1_alg».proof.Proof.Gen.KernelIdeal.Skeleton
import proofs.«154087_j72215580115573_1_alg».proof.Proof.Gen.KernelIdeal.Launch
import proofs.«154087_j72215580115573_1_alg».proof.Proof.Gen.KernelIdeal.Points
import proofs.«154087_j72215580115573_1_alg».proof.Proof.Gen.KernelIdeal.Frame
import proofs.«154087_j72215580115573_1_alg».proof.Proof.Gen.KernelIdeal.Value
import proofs.«154087_j72215580115573_1_alg».proof.Proof.Gen.ReferenceIdeal
import proofs.«154087_j72215580115573_1_alg».proof.Proof.Gen.Pre_finite_inputs
import proofs.«154087_j72215580115573_1_alg».proof.Proof.KernelValue
import proofs.«154087_j72215580115573_1_alg».proof.Proof.RefValue
import proofs.«154087_j72215580115573_1_alg».proof.Proof.Encoding
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- From memories that agree on the arguments both programs end with `x + pe`: the kernel's array by its tiles, the
    reference's by its broadcast sum, the two encodings one array. -/
theorem algebraic : Cert.algebraic_KernelIdeal_ReferenceIdeal := by
  intro m ρ m' ρ' _ hagree
  refine ⟨fun c => Cert.AddRows.addRows (m ((c.tc : Thread Cert.KernelIdeal.nD Cert.KernelIdeal.τ).loc Cert.KernelIdeal.main_arg0))
      (Cert.KernelIdeal.Gen.V m c Cert.KernelIdeal.main_v50),
    Cert.KernelIdeal.AddRowsValue.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, Cert.Encoding.same m m' c (hagree c).2.1 (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
